-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x1024x1024 : Shape := ⟨4, ![2, 16, 1024, 1024]⟩
abbrev S2x16x1024x64 : Shape := ⟨4, ![2, 16, 1024, 64]⟩
abbrev S_ : Shape := ⟨0, ![]⟩

class Facts : Prop where
  bcast_S_S2x16x1024x1024 : S_.BroadcastsInDim S2x16x1024x1024 (![] : Fin 0 → Fin S2x16x1024x1024.rank)
  reducesTo_S2x16x1024x1024_S_d0_1_2_3 : S2x16x1024x1024.ReducesTo [0, 1, 2, 3] S_
  h_S_ : 0 < S_.numel
  bcast_S_S2x16x1024x64 : S_.BroadcastsInDim S2x16x1024x64 (![] : Fin 0 → Fin S2x16x1024x64.rank)
  reducesTo_S2x16x1024x64_S_d0_1_2_3 : S2x16x1024x64.ReducesTo [0, 1, 2, 3] S_

variable [Facts]

def fn {F : FTy → Type} [FloatOps F] (main_arg0 : FVec F S2x16x1024x1024 .f32) (main_arg1 : FVec F S2x16x1024x64 .f32) : IVec S_ 1 :=
  let main_v0 : FVec F S2x16x1024x1024 .f32 := Host.absf main_arg0
  let main_cst : FVec F S_ .f32 := constant S_ .f32 0x7F800000#32
  let main_v1 : FVec F S2x16x1024x1024 .f32 := broadcastInDim S2x16x1024x1024 ![] bcast_S_S2x16x1024x1024 main_cst
  let main_v2 : IVec S2x16x1024x1024 1 := cmpf .olt main_v0 main_v1
  let main_c : IVec S_ 1 := constantI S_ 1 1#1
  let main_v3 : IVec S_ 1 := (fun x v => Host.reduce IntOp.andi x v reducesTo_S2x16x1024x1024_S_d0_1_2_3 h_S_) main_v2 main_c
  let main_v4 : FVec F S2x16x1024x64 .f32 := Host.absf main_arg1
  let main_cst_0 : FVec F S_ .f32 := constant S_ .f32 0x7F800000#32
  let main_v5 : FVec F S2x16x1024x64 .f32 := broadcastInDim S2x16x1024x64 ![] bcast_S_S2x16x1024x64 main_cst_0
  let main_v6 : IVec S2x16x1024x64 1 := cmpf .olt main_v4 main_v5
  let main_c_1 : IVec S_ 1 := constantI S_ 1 1#1
  let main_v7 : IVec S_ 1 := (fun x v => Host.reduce IntOp.andi x v reducesTo_S2x16x1024x64_S_d0_1_2_3 h_S_) main_v6 main_c_1
  let main_v8 : IVec S_ 1 := andi main_v3 main_v7
  main_v8
-- ==== Kernel.lean ====
abbrev S2x16x1024x1024 : Shape := ⟨4, ![2, 16, 1024, 1024]⟩
abbrev S2x16x1024x64 : Shape := ⟨4, ![2, 16, 1024, 64]⟩
abbrev S32x1024x1024 : Shape := ⟨3, ![32, 1024, 1024]⟩
abbrev S32x1024x64 : Shape := ⟨3, ![32, 1024, 64]⟩
abbrev S2x1024x1024 : Shape := ⟨3, ![2, 1024, 1024]⟩
abbrev S2x1024x64 : Shape := ⟨3, ![2, 1024, 64]⟩

abbrev nBuf : Space → Nat
  | .hbm => 6
  | .vmem => 6
  | .smem => 0
  | _ => 0

abbrev bufTy : (tb : Table) → Fin (tcTables nBuf tb) → BufTy
  | .hbm, ⟨0, _⟩ => ⟨S2x16x1024x1024, .f32⟩
  | .hbm, ⟨1, _⟩ => ⟨S2x16x1024x64, .f32⟩
  | .hbm, ⟨2, _⟩ => ⟨S32x1024x1024, .f32⟩
  | .hbm, ⟨3, _⟩ => ⟨S32x1024x64, .f32⟩
  | .hbm, ⟨4, _⟩ => ⟨S32x1024x64, .f32⟩
  | .hbm, ⟨5, _⟩ => ⟨S2x16x1024x64, .f32⟩
  | .local _ .vmem, ⟨0, _⟩ => ⟨S2x1024x1024, .f32⟩
  | .local _ .vmem, ⟨1, _⟩ => ⟨S2x1024x1024, .f32⟩
  | .local _ .vmem, ⟨2, _⟩ => ⟨S2x1024x64, .f32⟩
  | .local _ .vmem, ⟨3, _⟩ => ⟨S2x1024x64, .f32⟩
  | .local _ .vmem, ⟨4, _⟩ => ⟨S2x1024x64, .f32⟩
  | .local _ .vmem, ⟨5, _⟩ => ⟨S2x1024x64, .f32⟩
  | _, _ => ⟨S2x16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S2x16x1024x1024_S32x1024x1024 : S2x16x1024x1024.ShapeCasts S32x1024x1024
  shapeCasts_S2x16x1024x64_S32x1024x64 : S2x16x1024x64.ShapeCasts S32x1024x64
  inb_S2x1024x1024_S2x1024x1024_0_0_0 : ∀ a, (![0, 0, 0] : Fin 3 → Nat) a + S2x1024x1024.size a ≤ S2x1024x1024.size a
  h_S2x1024x1024 : 0 < S2x1024x1024.numel
  shapeCasts_S2x1024x1024_S2x1024x1024 : S2x1024x1024.ShapeCasts S2x1024x1024
  bitsLt_bf16_f32 : FTy.bits .bf16 < FTy.bits .f32
  inb_S2x1024x64_S2x1024x64_0_0_0 : ∀ a, (![0, 0, 0] : Fin 3 → Nat) a + S2x1024x64.size a ≤ S2x1024x64.size a
  h_S2x1024x64 : 0 < S2x1024x64.numel
  shapeCasts_S2x1024x64_S2x1024x64 : S2x1024x64.ShapeCasts S2x1024x64
  shapeCasts_S32x1024x64_S2x16x1024x64 : S32x1024x64.ShapeCasts S2x16x1024x64
  dot_S2x1024x1024_S2x1024x64_S2x1024x64_2_1_1_2_0_0_wf : DotDims.WF S2x1024x1024 S2x1024x64 S2x1024x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x1024.size a ≤ S32x1024x1024.size a
  hwx0_0 : ∀ i : grid0.Coords, EltTy.bits .f32 = 32 ∨ (Rect.block (s := S32x1024x1024) S2x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x64.size a ≤ S32x1024x64.size a
  hwx0_1 : ∀ i : grid0.Coords, EltTy.bits .f32 = 32 ∨ (Rect.block (s := S32x1024x64) S2x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1024x64.size a ≤ S32x1024x64.size a
  hwx0_2 : ∀ i : grid0.Coords, EltTy.bits .f32 = 32 ∨ (Rect.block (s := S32x1024x64) S2x1024x64.size (cc0_transform_2 i) (hinb0_2 i)).WholeWords (EltTy.packing .f32)

variable [Facts₀]

def dot_S2x1024x1024_S2x1024x64_S2x1024x64_2_1_1_2_0_0 : DotDims S2x1024x1024 S2x1024x64 S2x1024x64 where
  lhsContracting := [2]
  rhsContracting := [1]
  lhsNonContracting := [1]
  rhsNonContracting := [2]
  lhsBatch := [0]
  rhsBatch := [0]
  wf := dot_S2x1024x1024_S2x1024x64_S2x1024x64_2_1_1_2_0_0_wf

abbrev win0_0 : Pipeline.Window sig grid0 :=
  Pipeline.Window.ofSpec (Memref.whole main_v0) S2x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2x1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x16x1024x1024 : Shape := ⟨4, ![2, 16, 1024, 1024]⟩
abbrev S2x16x1024x64 : Shape := ⟨4, ![2, 16, 1024, 64]⟩

abbrev nBuf : Space → Nat
  | .hbm => 3
  | .vmem => 0
  | .smem => 0
  | _ => 0

abbrev bufTy : (tb : Table) → Fin (tcTables nBuf tb) → BufTy
  | .hbm, ⟨0, _⟩ => ⟨S2x16x1024x1024, .f32⟩
  | .hbm, ⟨1, _⟩ => ⟨S2x16x1024x64, .f32⟩
  | .hbm, ⟨2, _⟩ => ⟨S2x16x1024x64, .f32⟩
  | _, _ => ⟨S2x16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S2x16x1024x1024_S2x16x1024x64_S2x16x1024x64_3_2_2_3_01_01_wf : DotDims.WF S2x16x1024x1024 S2x16x1024x64 S2x16x1024x64 [3] [2] [2] [3] [0, 1] [0, 1]

variable [Facts₀]

def dot_S2x16x1024x1024_S2x16x1024x64_S2x16x1024x64_3_2_2_3_01_01 : DotDims S2x16x1024x1024 S2x16x1024x64 S2x16x1024x64 where
  lhsContracting := [3]
  rhsContracting := [2]
  lhsNonContracting := [2]
  rhsNonContracting := [3]
  lhsBatch := [0, 1]
  rhsBatch := [0, 1]
  wf := dot_S2x16x1024x1024_S2x16x1024x64_S2x16x1024x64_3_2_2_3_01_01_wf

class Facts : Prop extends Facts₀ where

variable [Facts]
-- ==== Proof.BlockProduct.lean ====
/-
  What the kernel body stores at one grid point, read at an index.

  The body loads a block `x0 : [2, 1024, 1024]` of the left operand and a block `x1 : [2, 1024, 64]` of the right one,
  changes their float format (the identity on extended reals), and multiplies them on the matrix unit into a zero
  accumulator with the block's leading axis as the batch axis, contracting axis 2 of `x0` with axis 1 of `x1`. At the
  ideal instance the stored entry at `(q, s, d)` is therefore `0 + ∑ k, x0[q, s, k] · x1[q, k, d] = ∑ k, x0[q, s, k] · x1[q, k, d]`
  (`0 + x = x` holds for every extended real, infinite ones included).
-/
import proofs.«109136_j20512763806070_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockProduct

open Cert.KernelIdeal Cert.KernelIdeal.Gen Idealize.ShloMosaic Idealize.ShloMosaic.ValueIdx

/-- The body's matrix product: batch axis 0, axis 2 of the left block contracted with axis 1 of the right one. -/
abbrev D : DotDims S2x1024x1024 S2x1024x64 S2x1024x64 := dot_S2x1024x1024_S2x1024x64_S2x1024x64_2_1_1_2_0_0

/-! The left block is read at `(j 0, j 1, k)`: -/

theorem lhs_0 (j : S2x1024x64.Idx) (q : D.contr.Idx) : (D.lhsIdx j q 0).val = (j 0).val := by
  unfold DotDims.lhsIdx
  rw [dif_pos (show (0 : Fin S2x1024x1024.rank) ∈ D.lhsBatch by decide)]
  rfl
theorem lhs_1 (j : S2x1024x64.Idx) (q : D.contr.Idx) : (D.lhsIdx j q 1).val = (j 1).val := by
  unfold DotDims.lhsIdx
  rw [dif_neg (show ¬(1 : Fin S2x1024x1024.rank) ∈ D.lhsBatch by decide),
    dif_pos (show (1 : Fin S2x1024x1024.rank) ∈ D.lhsNonContracting by decide)]
  rfl
theorem lhs_2 (j : S2x1024x64.Idx) (q : D.contr.Idx) : (D.lhsIdx j q 2).val = (q ⟨0, by decide⟩).val :=
  D.lhsIdx_val_of_single rfl j q

/-! and the right block at `(j 0, k, j 2)`: -/

theorem rhs_0 (j : S2x1024x64.Idx) (q : D.contr.Idx) : (D.rhsIdx j q 0).val = (j 0).val := by
  unfold DotDims.rhsIdx
  rw [dif_pos (show (0 : Fin S2x1024x64.rank) ∈ D.rhsBatch by decide)]
  rfl
theorem rhs_1 (j : S2x1024x64.Idx) (q : D.contr.Idx) : (D.rhsIdx j q 1).val = (q ⟨0, by decide⟩).val :=
  D.rhsIdx_val_of_single rfl j q
theorem rhs_2 (j : S2x1024x64.Idx) (q : D.contr.Idx) : (D.rhsIdx j q 2).val = (j 2).val := by
  unfold DotDims.rhsIdx
  rw [dif_neg (show ¬(2 : Fin S2x1024x64.rank) ∈ D.rhsBatch by decide),
    dif_pos (show (2 : Fin S2x1024x64.rank) ∈ D.rhsNonContracting by decide)]
  rfl

/-- The matrix unit's product into the zero accumulator, at `(q, s, d)`: the sum over the contracted coordinate. -/
theorem matmul_zero_apply (a : FVec Ideal S2x1024x1024 .bf16) (c : FVec Ideal S2x1024x64 .bf16)
    (q : Fin 2) (s : Fin 1024) (d : Fin 64) :
    matmul (F := Ideal) D none a c (constant (F := Ideal) S2x1024x64 .f32 0x00000000#32) (ix3 q s d)
      = ∑ k : Fin 1024, a (ix3 q s k) * c (ix3 q k d) := by
  refine (Ideal.matmul_constant_zero_apply D none a c (ix3 q s d)).trans ?_
  rw [← Equiv.sum_comp (contrEquiv1 D 1024 rfl rfl).symm]
  refine Finset.sum_congr rfl fun k _ => ?_
  have hk := contrEquiv1_symm_val D 1024 rfl rfl k
  have el : D.lhsIdx (ix3 q s d) ((contrEquiv1 D 1024 rfl rfl).symm k) = ix3 q s k := funext fun x => Fin.ext (by
    match x with
    | ⟨0, _⟩ => exact lhs_0 _ _
    | ⟨1, _⟩ => exact lhs_1 _ _
    | ⟨2, _⟩ => exact (lhs_2 _ _).trans hk)
  have er : D.rhsIdx (ix3 q s d) ((contrEquiv1 D 1024 rfl rfl).symm k) = ix3 q k d := funext fun x => Fin.ext (by
    match x with
    | ⟨0, _⟩ => exact rhs_0 _ _
    | ⟨1, _⟩ => exact (rhs_1 _ _).trans hk
    | ⟨2, _⟩ => exact rhs_2 _ _)
  rw [el, er]

/-- WHAT THE BODY STORES, at `(q, s, d)`: `∑ k, x0[q, s, k] · x1[q, k, d]` of the two loaded blocks (the same-shape
    casts and the changes of float format are the identity). -/
theorem stored_apply (x0 : Vec Ideal S2x1024x1024 .f32) (x1 : Vec Ideal S2x1024x64 .f32)
    (q : Fin 2) (s : Fin 1024) (d : Fin 64) :
    k0_pay1 (F := Ideal) x0 x1 (ix3 q s d) = ∑ k : Fin 1024, x0 (ix3 q s k) * x1 (ix3 q k d) := by
  unfold k0_pay1
  refine (matmul_zero_apply _ _ q s d).trans ?_
  refine Finset.sum_congr rfl fun k _ => ?_
  rw [truncf_apply, truncf_apply, shapeCast_self, shapeCast_self]

end Cert.KernelIdeal.BlockProduct

end
-- ==== Proof.HeadProduct.lean ====
/-
  The one function both programs compute, and the layout change between its two spellings.

  For arrays `x0 : [2, 16, 1024, 1024]` and `x1 : [2, 16, 1024, 64]` of extended reals, `headProduct x0 x1` is, for
  every batch `b` and head `h`, the product of the 1024 × 1024 matrix `x0[b, h]` with the 1024 × 64 matrix `x1[b, h]`:
  the entry at `(b, h, s, d)` is `∑ k, x0[b, h, s, k] · x1[b, h, k, d]`.

  The kernel works on the same data with the two leading axes merged into one of extent 32: `mergedProduct a c` is the same
  product per merged head `q`, entry `(q, s, d) ↦ ∑ k, a[q, s, k] · c[q, k, d]`. Merging `[2, 16]` into `[32]` is a
  row-major reshape, so the element at `(b, h, …)` of the rank-4 array is the element at `(16·b + h, …)` of the rank-3
  one (`merge_lhs`, `merge_rhs`, `split_out`), and therefore splitting the merged product of the merged arrays gives
  back the product per batch and head (`split_mergedProduct`). Only re-indexing: no law of the extended reals is used, so
  nothing here asks the entries to be finite.
-/
import Idealize.ShloMosaic.Lib.Pipeline.Value
import Idealize.ShloMosaic.Lib.ValueIdx
import Idealize.ShloMosaic.PureOps.Ideal

noncomputable section

namespace Cert.HeadProduct

open Idealize.ShloMosaic Idealize.ShloMosaic.ValueIdx

abbrev L4 : Shape := ⟨4, ![2, 16, 1024, 1024]⟩
abbrev R4 : Shape := ⟨4, ![2, 16, 1024, 64]⟩
abbrev L3 : Shape := ⟨3, ![32, 1024, 1024]⟩
abbrev R3 : Shape := ⟨3, ![32, 1024, 64]⟩

/-- Per batch and head, the matrix product: entry `(b, h, s, d)` is `∑ k, x0[b, h, s, k] · x1[b, h, k, d]`. -/
def headProduct (x0 : L4.Idx → EReal) (x1 : R4.Idx → EReal) : R4.Idx → EReal := fun i =>
  ∑ k : Fin 1024, x0 (ix4 (n0 := 2) (n1 := 16) (n2 := 1024) (n3 := 1024) (i 0) (i 1) (i 2) k)
    * x1 (ix4 (n0 := 2) (n1 := 16) (n2 := 1024) (n3 := 64) (i 0) (i 1) k (i 3))

/-- The same per merged head `q = 16·b + h`: entry `(q, s, d)` is `∑ k, a[q, s, k] · c[q, k, d]`. -/
def mergedProduct (a : L3.Idx → EReal) (c : R3.Idx → EReal) : R3.Idx → EReal := fun j =>
  ∑ k : Fin 1024, a (ix3 (n0 := 32) (n1 := 1024) (n2 := 1024) (j 0) (j 1) k)
    * c (ix3 (n0 := 32) (n1 := 1024) (n2 := 64) (j 0) k (j 2))

/-- The merged head coordinate `16·b + h`. -/
def head (b : Fin 2) (h : Fin 16) : Fin 32 := ⟨b.val * 16 + h.val, by omega⟩

/-- The left operand merged: `(16·b + h, s, k)` of the rank-3 array is `(b, h, s, k)` of the rank-4 one. -/
theorem merge_lhs {α : Type} (x : L4.Idx → α) (hc : L4.ShapeCasts L3) (b : Fin 2) (h : Fin 16) (s k : Fin 1024) :
    shapeCast L3 x hc (ix3 (head b h) s k) = x (ix4 b h s k) := by
  refine shapeCast_apply x hc _ _ ?_
  rw [Shape.rowMajor_val_four, Shape.rowMajor_val_three]
  rfl

/-- The right operand merged, likewise. -/
theorem merge_rhs {α : Type} (x : R4.Idx → α) (hc : R4.ShapeCasts R3) (b : Fin 2) (h : Fin 16) (k : Fin 1024) (d : Fin 64) :
    shapeCast R3 x hc (ix3 (head b h) k d) = x (ix4 b h k d) := by
  refine shapeCast_apply x hc _ _ ?_
  rw [Shape.rowMajor_val_four, Shape.rowMajor_val_three]
  rfl

/-- The result split back: `(b, h, s, d)` of the rank-4 array is `(16·b + h, s, d)` of the rank-3 one. -/
theorem split_out {α : Type} (y : R3.Idx → α) (hc : R3.ShapeCasts R4) (b : Fin 2) (h : Fin 16) (s : Fin 1024) (d : Fin 64) :
    shapeCast R4 y hc (ix4 b h s d) = y (ix3 (head b h) s d) := by
  refine shapeCast_apply y hc _ _ ?_
  rw [Shape.rowMajor_val_four, Shape.rowMajor_val_three]
  rfl

/-- Merge the heads of both operands, multiply per merged head, split the heads of the result: the product per batch
    and head. -/
theorem split_mergedProduct (x0 : L4.Idx → EReal) (x1 : R4.Idx → EReal) (h0 : L4.ShapeCasts L3) (h1 : R4.ShapeCasts R3)
    (h2 : R3.ShapeCasts R4) :
    shapeCast R4 (mergedProduct (shapeCast L3 x0 h0) (shapeCast R3 x1 h1)) h2 = headProduct x0 x1 := by
  funext i
  obtain ⟨b, h, s, d, rfl⟩ : ∃ (b : Fin 2) (h : Fin 16) (s : Fin 1024) (d : Fin 64), i = ix4 b h s d :=
    ⟨i 0, i 1, i 2, i 3, eq_ix4 i⟩
  rw [split_out]
  show ∑ k : Fin 1024, shapeCast L3 x0 h0 (ix3 (head b h) s k) * shapeCast R3 x1 h1 (ix3 (head b h) k d)
    = ∑ k : Fin 1024, x0 (ix4 b h s k) * x1 (ix4 b h k d)
  refine Finset.sum_congr rfl fun k _ => ?_
  rw [merge_lhs, merge_rhs]

end Cert.HeadProduct

end
-- ==== Proof.RegionValue.lean ====
/-
  What the region leaves in its output array.

  The grid has 16 points. Point `t` stages rows `2t, 2t + 1` of the merged left operand (`[32, 1024, 1024]`), the same
  two rows of the merged right operand (`[32, 1024, 64]`), and writes back rows `2t, 2t + 1` of the output
  (`[32, 1024, 64]`): all three index maps are `t ↦ (t, 0, 0)`. What it writes back is the per-head product of the two
  staged blocks (BlockProduct), and a block's entry `(q, s, k)` is the array's entry `(2t + q, s, k)`; so the written
  block is block `t` of ONE function of the two operand arrays, their per-head product `mergedProduct`
  (`writtenBack_eq`). The 16 output blocks tile the array (row `r` lies in the block of point `r / 2`: `covered`), so
  after the run the output array IS the per-head product of the operands as the region found them (`output_eq`).
-/
import proofs.«109136_j20512763806070_2_alg».proof.Proof.Gen.KernelIdeal.Frame
import proofs.«109136_j20512763806070_2_alg».proof.Proof.BlockProduct
import proofs.«109136_j20512763806070_2_alg».proof.Proof.HeadProduct
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open Cert.HeadProduct (mergedProduct)

variable (m : (ℓ : Loc nD τ sig) → Buf (Elt Ideal) ℓ)

theorem zero_offsets : (![0, 0, 0] : Fin 3 → Nat) = fun _ => 0 := funext fun a => by fin_cases a <;> rfl

/-- The three index maps over the grid: each window's block at point `t` starts at row `t` of blocks on the leading
    axis and at block 0 on the other two, and `t` stays below 16. -/
theorem index_maps : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (0 : Fin 3) ≤ 15 ∧ win0_2.index t (1 : Fin 3) = 0 ∧ win0_2.index t (2 : Fin 3) = 0 :=
  (by decide +kernel : ∀ t : Fin grid0.N, _)

/-- Every block row of the output is some point's. -/
theorem index_onto : ∀ q : Fin 16, ∃ t : Fin cfg0.N, win0_2.index t = ![q.val, 0, 0] :=
  (by decide +kernel : ∀ q : Fin 16, ∃ t : Fin grid0.N, win0_2.index t = ![q.val, 0, 0])

/-- WHAT POINT `t` WRITES BACK is block `t` of the per-head product of the two operand arrays as the region finds them. -/
theorem writtenBack_eq (c : Dev nD) (t : Fin cfg0.N) :
    (dats m 0 c).flushed 2 t
      = ((cfg0.win 2).blk t).view.read (Elt Ideal) (mergedProduct (V m c main_v0) (V m c main_v1)) := by
  show (cfg0.win 2).cut (grid0.coords t) ((dats m 0 c).after 2 t) = _
  rw [after0_2]
  unfold out0_2
  rw [View.canon_unit_zero zero_offsets]
  simp only [View.ld_unit_zero (S := S2x1024x1024) zero_offsets, View.ld_unit_zero (S := S2x1024x64) zero_offsets]
  obtain ⟨e0, e1, e2, e3, e4, e5, e6, e7, e8⟩ := index_maps t
  funext j
  obtain ⟨q, s, d, rfl⟩ : ∃ (q : Fin 2) (s : Fin 1024) (d : Fin 64), j = ix3 q s d := ⟨j 0, j 1, j 2, eq_ix3 j⟩
  show k0_pay1 (F := Ideal) (iblk m c 0 t) (iblk m c 1 t) (ix3 q s d)
    = mergedProduct (V m c main_v0) (V m c main_v1) (((cfg0.win 2).blk t).view.emb (ix3 q s d))
  refine (BlockProduct.stored_apply (iblk m c 0 t) (iblk m c 1 t) q s d).trans ?_
  unfold mergedProduct
  refine Finset.sum_congr rfl fun k _ => ?_
  have h0 : ((cfg0.win 0).blk t).view.emb (ix3 q s k)
      = ix3 (n0 := 32) (n1 := 1024) (n2 := 1024) ((((cfg0.win 2).blk t).view.emb (ix3 q s d)) 0) ((((cfg0.win 2).blk t).view.emb (ix3 q s d)) 1) k := by
    funext a; apply Fin.ext
    match a with
    | ⟨0, _⟩ => show win0_0.index t (0 : Fin 3) * 2 + 1 * q.val = win0_2.index t (0 : Fin 3) * 2 + 1 * q.val; omega
    | ⟨1, _⟩ => show win0_0.index t (1 : Fin 3) * 1024 + 1 * s.val = win0_2.index t (1 : Fin 3) * 1024 + 1 * s.val; omega
    | ⟨2, _⟩ => show win0_0.index t (2 : Fin 3) * 1024 + 1 * k.val = k.val; omega
  have h1 : ((cfg0.win 1).blk t).view.emb (ix3 q k d)
      = ix3 (n0 := 32) (n1 := 1024) (n2 := 64) ((((cfg0.win 2).blk t).view.emb (ix3 q s d)) 0) k ((((cfg0.win 2).blk t).view.emb (ix3 q s d)) 2) := by
    funext a; apply Fin.ext
    match a with
    | ⟨0, _⟩ => show win0_1.index t (0 : Fin 3) * 2 + 1 * q.val = win0_2.index t (0 : Fin 3) * 2 + 1 * q.val; omega
    | ⟨1, _⟩ => show win0_1.index t (1 : Fin 3) * 1024 + 1 * k.val = k.val; omega
    | ⟨2, _⟩ => show win0_1.index t (2 : Fin 3) * 64 + 1 * d.val = win0_2.index t (2 : Fin 3) * 64 + 1 * d.val; omega
  have hl : iblk m c 0 t (ix3 q s k)
      = (V m c main_v0 : S32x1024x1024.Idx → EReal) (ix3 (n0 := 32) (n1 := 1024) (n2 := 1024) ((((cfg0.win 2).blk t).view.emb (ix3 q s d)) 0) ((((cfg0.win 2).blk t).view.emb (ix3 q s d)) 1) k) := by
    show (V m c main_v0 : S32x1024x1024.Idx → EReal) (((cfg0.win 0).blk t).view.emb (ix3 q s k)) = _
    rw [h0]
  have hr : iblk m c 1 t (ix3 q k d)
      = (V m c main_v1 : S32x1024x64.Idx → EReal) (ix3 (n0 := 32) (n1 := 1024) (n2 := 64) ((((cfg0.win 2).blk t).view.emb (ix3 q s d)) 0) k ((((cfg0.win 2).blk t).view.emb (ix3 q s d)) 2)) := by
    show (V m c main_v1 : S32x1024x64.Idx → EReal) (((cfg0.win 1).blk t).view.emb (ix3 q k d)) = _
    rw [h1]
  rw [hl, hr]

/-- An index of the output array is in point `t`'s block iff each coordinate is in the block's range on its axis. -/
theorem mem_block (t : Fin cfg0.N) (i : S32x1024x64.Idx) :
    i ∈ ((cfg0.win 2).blk t).view.set ↔ ∀ a : Fin 3, win0_2.index t a * S2x1024x64.size a ≤ (i a).val
      ∧ (i a).val < win0_2.index t a * S2x1024x64.size a + S2x1024x64.size a := by
  show i ∈ ((View.whole main_v2).slice (win0_2.rect t)).set ↔ _
  rw [View.set_slice_whole, Rect.mem_set_unit]
  exact Iff.rfl

/-- The 16 blocks tile the output array: row `r` of it lies in the block of point `r / 2`. -/
theorem covered (i : S32x1024x64.Idx) :
    ∃ t : Fin cfg0.N, (cfg0.win 2).flush t = true ∧ i ∈ ((cfg0.win 2).blk t).view.set := by
  have hi0 : (i 0).val < 32 := (i 0).isLt
  have hi1 : (i 1).val < 1024 := (i 1).isLt
  have hi2 : (i 2).val < 64 := (i 2).isLt
  obtain ⟨t, ht⟩ := index_onto ⟨(i 0).val / 2, by omega⟩
  have q0 : win0_2.index t (0 : Fin 3) = (i 0).val / 2 := congrFun ht 0
  have q1 : win0_2.index t (1 : Fin 3) = 0 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 2 ≤ (i 0).val ∧ (i 0).val < win0_2.index t (0 : Fin 3) * 2 + 2; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 64 ≤ (i 2).val ∧ (i 2).val < win0_2.index t (2 : Fin 3) * 64 + 64; omega

/-- THE OUTPUT ARRAY after the run: the per-head product of the two operand arrays as the region found them. -/
theorem output_eq (c : Dev nD) :
    (dats m 0 c).arrAt 2 cfg0.N = mergedProduct (V m c main_v0) (V m c main_v1) :=
  (dats m 0 c).arrAt_eq_of_cover 2 (mergedProduct (V m c main_v0) (V m c main_v1)) (fun t _ => writtenBack_eq m c t) covered

end Cert.KernelIdeal.RegionValue

end
-- ==== Proof.KernelRun.lean ====
/-
  The idealized kernel's run, with its result named.

  Around the region the program only re-lays data: before it, both operands have their batch and head axes merged
  (`[2, 16, …] → [32, …]`, a row-major reshape: `entry_lhs`, `entry_rhs`), and after it the region's output array has
  them split again (`result_after`). With the region's output being the per-head product of the merged operands
  (RegionValue) and the split of that product being the product per batch and head (HeadProduct), the result array ends
  at `headProduct` of the two argument arrays (`result_eq`), on every weakly fair execution, with the arguments unchanged
  (`run`).
-/
import proofs.«109136_j20512763806070_2_alg».proof.Proof.Gen.KernelIdeal.Frame
import proofs.«109136_j20512763806070_2_alg».proof.Proof.RegionValue
import proofs.«109136_j20512763806070_2_alg».proof.Proof.HeadProduct
import Idealize.ShloMosaic.Lib.StableHlo.Run

noncomputable section

namespace Cert.KernelIdeal.KernelRun

open Cert.KernelIdeal Cert.KernelIdeal.Gen Idealize.ShloMosaic Idealize.ShloMosaic.TcCoe Idealize.SL.Sem
open Idealize.ShloMosaic.StableHlo
open Idealize.ShloMosaic.Pipeline (Dat)
open Cert.HeadProduct (headProduct mergedProduct split_mergedProduct)

variable (m : (ℓ : Loc nD τ sig) → Buf (Elt Ideal) ℓ) (ρ : Dev nD → PrngReg)

/-- The region finds the left operand with batch and head merged. -/
theorem entry_lhs (c : Dev nD) :
    (V m c main_v0 : S32x1024x1024.Idx → Elt Ideal .f32)
      = shapeCast S32x1024x1024 (m ((c : Thread nD τ).loc main_arg0)) shapeCasts_S2x16x1024x1024_S32x1024x1024 := by
  show StableHlo.after hostOps0 (fun b => m (c, b)) (Proc.devRef .tc main_v0) = _
  after_results
  rfl

/-- And the right operand likewise. -/
theorem entry_rhs (c : Dev nD) :
    (V m c main_v1 : S32x1024x64.Idx → Elt Ideal .f32)
      = shapeCast S32x1024x64 (m ((c : Thread nD τ).loc main_arg1)) shapeCasts_S2x16x1024x64_S32x1024x64 := by
  show StableHlo.after hostOps0 (fun b => m (c, b)) (Proc.devRef .tc main_v1) = _
  after_results
  rfl

/-- The result buffer after the line that follows the region: the region's output array with batch and head split. -/
theorem result_after (c : Dev nD) :
    Pipeline.afterTail₀ cfgs (dats m) 0 (V0 m) [hostOps1] c main_v3
      = shapeCast S2x16x1024x64 ((dats m 0 c).arrAt 2 cfg0.N) shapeCasts_S32x1024x64_S2x16x1024x64 := by
  unfold Pipeline.afterTail₀
  show StableHlo.after hostOps1 _ (Proc.devRef .tc main_v3) = _
  after_results
  rw [Pipeline.withArrays_arr spec0 launch0.win.arr_inj c _ _ 2]
  rfl

/-- THE RESULT: the product per batch and head of the two argument arrays. -/
theorem result_eq (c : Dev nD) :
    Pipeline.afterTail₀ cfgs (dats m) 0 (V0 m) [hostOps1] c main_v3
      = headProduct (m ((c : Thread nD τ).loc main_arg0)) (m ((c : Thread nD τ).loc main_arg1)) := by
  rw [result_after, RegionValue.output_eq, entry_lhs, entry_rhs]
  exact split_mergedProduct _ _ _ _ _

/-- Every weakly fair execution of the idealized kernel terminates, nothing faulting, with the result array at the product
    per batch and head of the argument arrays, and the arguments unchanged. -/
theorem run : θ_run defs (onTc (τ := τ) (main (F := Ideal))) ⟨m, fun _ => 0, ρ⟩ fun r => ∀ c : Dev nD,
      r.2.mem ((c.tc : Thread nD τ).loc main_v3)
        = headProduct (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.KernelRun

end
-- ==== Proof.ReferenceValue.lean ====
/-
  The reference's result is the product per batch and head.

  The reference is one `dot_general` with batch axes `[0, 1]` and axis 3 of the left operand contracted with axis 2 of
  the right one. At the ideal instance its entry at `(b, h, s, d)` is `∑ k, x0[b, h, s, k] · x1[b, h, k, d]` (the generated
  read of the operation); that is `headProduct` entry by entry, the two spellings of each operand index agreeing coordinate
  by coordinate.
-/
import proofs.«109136_j20512763806070_2_alg».proof.Proof.Gen.ReferenceIdeal.Read
import proofs.«109136_j20512763806070_2_alg».proof.Proof.HeadProduct

noncomputable section

namespace Cert.ReferenceIdeal.RefValue

open Cert.ReferenceIdeal Cert.ReferenceIdeal.Gen Cert.ReferenceIdeal.Read Idealize.ShloMosaic
open Idealize.ShloMosaic.ValueIdx
open Cert.HeadProduct (headProduct)

theorem reference_eq (x0 : (⟨S2x16x1024x1024, .f32⟩ : BufTy).Contents (Elt Ideal))
    (x1 : (⟨S2x16x1024x64, .f32⟩ : BufTy).Contents (Elt Ideal)) :
    val_main_v0 (F := Ideal) x0 x1 = headProduct x0 x1 := by
  funext i
  rw [val_main_v0_apply]
  unfold headProduct
  refine Finset.sum_congr rfl fun k _ => ?_
  have el : lidx_main_v0 i k = ix4 (n0 := 2) (n1 := 16) (n2 := 1024) (n3 := 1024) (i 0) (i 1) (i 2) k :=
    funext fun a => by
      match a with
      | ⟨0, _⟩ => rfl
      | ⟨1, _⟩ => rfl
      | ⟨2, _⟩ => rfl
      | ⟨3, _⟩ => rfl
  have er : ridx_main_v0 i k = ix4 (n0 := 2) (n1 := 16) (n2 := 1024) (n3 := 64) (i 0) (i 1) k (i 3) :=
    funext fun a => by
      match a with
      | ⟨0, _⟩ => rfl
      | ⟨1, _⟩ => rfl
      | ⟨2, _⟩ => rfl
      | ⟨3, _⟩ => rfl
  rw [el, er]

end Cert.ReferenceIdeal.RefValue

end
-- ==== Proof.lean ====
/- The proof of `Cert.Claim` (proofs.«109136_j20512763806070_2_alg».proof.Defs).

   The kernel computes, for each of 2 × 16 batch-heads, the product of a 1024 × 1024 matrix with a 1024 × 64 matrix: it
   merges batch and head into one axis of extent 32, runs a 16-point grid whose point `t` multiplies heads `2t, 2t + 1`
   on the matrix unit (operands rounded to bf16, accumulation from zero), and splits the merged axis of the result again.
   The reference is one `dot_general` with batch axes `[0, 1]`. At the ideal instance a change of float format is the
   identity and `0 + x = x`, so both programs end with the entry at `(b, h, s, d)` equal to
   `∑ k, x0[b, h, s, k] · x1[b, h, k, d]` — `Cert.HeadProduct.headProduct`. The two sides are the same sum over the same
   index set in the same order; only indices are re-spelt (a row-major reshape moves `(b, h)` to `16·b + h`), so no law
   of the extended reals beyond `0 + x = x` is used and the finiteness of the inputs is never opened.

   Proof/HeadProduct.lean     the common function, and merge-multiply-split = multiply per batch and head
   Proof/BlockProduct.lean    what the body stores at one grid point, entry by entry
   Proof/RegionValue.lean     the region's output array is the per-head product of the merged operands
   Proof/KernelRun.lean       the reshapes around the region, and the kernel's run with its result named
   Proof/ReferenceValue.lean  the reference's `dot_general` is the common function
   The three frames are the generated ones (the reference's its generated run with the result dropped); the idealization
   rewrote nothing, so `preserves` is `True`. -/
import proofs.«109136_j20512763806070_2_alg».proof.Defs
import proofs.«109136_j20512763806070_2_alg».proof.Proof.Gen.Kernel
import proofs.«109136_j20512763806070_2_alg».proof.Proof.Gen.Kernel.Skeleton
import proofs.«109136_j20512763806070_2_alg».proof.Proof.Gen.Kernel.Launch
import proofs.«109136_j20512763806070_2_alg».proof.Proof.Gen.Kernel.Points
import proofs.«109136_j20512763806070_2_alg».proof.Proof.Gen.Kernel.Frame
import proofs.«109136_j20512763806070_2_alg».proof.Proof.Gen.KernelIdeal
import proofs.«109136_j20512763806070_2_alg».proof.Proof.Gen.KernelIdeal.Skeleton
import proofs.«109136_j20512763806070_2_alg».proof.Proof.Gen.KernelIdeal.Launch
import proofs.«109136_j20512763806070_2_alg».proof.Proof.Gen.KernelIdeal.Points
import proofs.«109136_j20512763806070_2_alg».proof.Proof.Gen.KernelIdeal.Frame
import proofs.«109136_j20512763806070_2_alg».proof.Proof.Gen.ReferenceIdeal
import proofs.«109136_j20512763806070_2_alg».proof.Proof.Gen.Pre_finite_inputs
import proofs.«109136_j20512763806070_2_alg».proof.Proof.Gen.ReferenceIdeal.Run
import proofs.«109136_j20512763806070_2_alg».proof.Proof.Gen.ReferenceIdeal.Read
import proofs.«109136_j20512763806070_2_alg».proof.Proof.KernelRun
import proofs.«109136_j20512763806070_2_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the result array at the product per batch and head of the argument arrays: the
    kernel by its run (KernelRun), the reference by its `dot_general` read entry by entry (ReferenceValue), from
    memories that agree on the arguments. -/
theorem algebraic : Cert.algebraic_KernelIdeal_ReferenceIdeal := by
  intro m ρ m' ρ' _ hagree
  refine ⟨fun c => Cert.HeadProduct.headProduct
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v0_eq _ _).trans (Cert.ReferenceIdeal.RefValue.reference_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
